-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256x256 : Shape := ⟨4, ![4, 256, 256, 256]⟩
abbrev S512x512 : Shape := ⟨2, ![512, 512]⟩
abbrev S_ : Shape := ⟨0, ![]⟩

class Facts : Prop where
  bcast_S_S4x256x256x256 : S_.BroadcastsInDim S4x256x256x256 (![] : Fin 0 → Fin S4x256x256x256.rank)
  reducesTo_S4x256x256x256_S_d0_1_2_3 : S4x256x256x256.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4x256x256x256 .f32) (main_arg1 : FVec F S4x256x256x256 .f32) (main_arg2 : FVec F S512x512 .f32) : IVec S_ 1 :=
  let main_v0 : FVec F S4x256x256x256 .f32 := Host.absf main_arg0
  let main_cst : FVec F S_ .f32 := constant S_ .f32 0x7F800000#32
  let main_v1 : FVec F S4x256x256x256 .f32 := broadcastInDim S4x256x256x256 ![] bcast_S_S4x256x256x256 main_cst
  let main_v2 : IVec S4x256x256x256 1 := cmpf .olt main_v0 main_v1
  let main_c : IVec S_ 1 := constantI S_ 1 1#1
  let main_v3 : IVec S_ 1 := (fun x v => Host.reduce IntOp.andi x v reducesTo_S4x256x256x256_S_d0_1_2_3 h_S_) main_v2 main_c
  let main_v4 : FVec F S4x256x256x256 .f32 := Host.absf main_arg1
  let main_cst_0 : FVec F S_ .f32 := constant S_ .f32 0x7F800000#32
  let main_v5 : FVec F S4x256x256x256 .f32 := broadcastInDim S4x256x256x256 ![] bcast_S_S4x256x256x256 main_cst_0
  let main_v6 : IVec S4x256x256x256 1 := cmpf .olt main_v4 main_v5
  let main_c_1 : IVec S_ 1 := constantI S_ 1 1#1
  let main_v7 : IVec S_ 1 := (fun x v => Host.reduce IntOp.andi x v reducesTo_S4x256x256x256_S_d0_1_2_3 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S4x256x256x256 : Shape := ⟨4, ![4, 256, 256, 256]⟩
abbrev S512x512 : Shape := ⟨2, ![512, 512]⟩
abbrev S4x256x65536 : Shape := ⟨3, ![4, 256, 65536]⟩
abbrev S512x256 : Shape := ⟨2, ![512, 256]⟩
abbrev S2x4x256x65536 : Shape := ⟨4, ![2, 4, 256, 65536]⟩
abbrev S1x256x2048 : Shape := ⟨3, ![1, 256, 2048]⟩
abbrev S2x1x256x2048 : Shape := ⟨4, ![2, 1, 256, 2048]⟩
abbrev S256x2048 : Shape := ⟨2, ![256, 2048]⟩
abbrev S512x2048 : Shape := ⟨2, ![512, 2048]⟩
abbrev S1x1x256x2048 : Shape := ⟨4, ![1, 1, 256, 2048]⟩
abbrev S2x4x256x256x256 : Shape := ⟨5, ![2, 4, 256, 256, 256]⟩

abbrev nBuf : Space → Nat
  | .hbm => 11
  | .vmem => 8
  | .smem => 0
  | _ => 0

abbrev bufTy : (tb : Table) → Fin (tcTables nBuf tb) → BufTy
  | .hbm, ⟨0, _⟩ => ⟨S4x256x256x256, .f32⟩
  | .hbm, ⟨1, _⟩ => ⟨S4x256x256x256, .f32⟩
  | .hbm, ⟨2, _⟩ => ⟨S512x512, .f32⟩
  | .hbm, ⟨3, _⟩ => ⟨S4x256x65536, .f32⟩
  | .hbm, ⟨4, _⟩ => ⟨S4x256x65536, .f32⟩
  | .hbm, ⟨5, _⟩ => ⟨S512x256, .f32⟩
  | .hbm, ⟨6, _⟩ => ⟨S512x256, .bf16⟩
  | .hbm, ⟨7, _⟩ => ⟨S512x256, .f32⟩
  | .hbm, ⟨8, _⟩ => ⟨S512x256, .bf16⟩
  | .hbm, ⟨9, _⟩ => ⟨S2x4x256x65536, .f32⟩
  | .hbm, ⟨10, _⟩ => ⟨S2x4x256x256x256, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S512x256, .bf16⟩
  | .local _ .vmem, ⟨5, _⟩ => ⟨S512x256, .bf16⟩
  | .local _ .vmem, ⟨6, _⟩ => ⟨S2x1x256x2048, .f32⟩
  | .local _ .vmem, ⟨7, _⟩ => ⟨S2x1x256x2048, .f32⟩
  | _, _ => ⟨S4x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x256x256x256_S4x256x65536 : S4x256x256x256.ShapeCasts S4x256x65536
  slices_S512x512_S512x256_0_0 : S512x512.Slices ![0, 0] S512x256
  bitsLt_bf16_f32 : FTy.bits .bf16 < FTy.bits .f32
  slices_S512x512_S512x256_0_256 : S512x512.Slices ![0, 256] S512x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S512x2048_o0_0_S256x2048 : S512x2048.Slices ![0, 0] S256x2048
  inb_S2x1x256x2048_S1x1x256x2048_0_0_0_0 : ∀ a, (![0, 0, 0, 0] : Fin 4 → Nat) a + S1x1x256x2048.size a ≤ S2x1x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  slices_S512x2048_o256_0_S256x2048 : S512x2048.Slices ![256, 0] S256x2048
  inb_S2x1x256x2048_S1x1x256x2048_1_0_0_0 : ∀ a, (![1, 0, 0, 0] : Fin 4 → Nat) a + S1x1x256x2048.size a ≤ S2x1x256x2048.size a
  shapeCasts_S2x4x256x65536_S2x4x256x256x256 : S2x4x256x65536.ShapeCasts S2x4x256x256x256
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x256x65536.size a
  hwx0_0 : ∀ i : grid0.Coords, EltTy.bits .f32 = 32 ∨ (Rect.block (s := S4x256x65536) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S4x256x65536.size a
  hwx0_1 : ∀ i : grid0.Coords, EltTy.bits .f32 = 32 ∨ (Rect.block (s := S4x256x65536) S1x256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x256x2048.size a ≤ S2x4x256x65536.size a
  hwx0_4 : ∀ i : grid0.Coords, EltTy.bits .f32 = 32 ∨ (Rect.block (s := S2x4x256x65536) S2x1x256x2048.size (cc0_transform_4 i) (hinb0_4 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2x1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x256x256 : Shape := ⟨4, ![4, 256, 256, 256]⟩
abbrev S512x512 : Shape := ⟨2, ![512, 512]⟩
abbrev S4x256x256x512 : Shape := ⟨4, ![4, 256, 256, 512]⟩
abbrev S1x4x256x256x256 : Shape := ⟨5, ![1, 4, 256, 256, 256]⟩
abbrev S2x4x256x256x256 : Shape := ⟨5, ![2, 4, 256, 256, 256]⟩

abbrev nBuf : Space → Nat
  | .hbm => 14
  | .vmem => 0
  | .smem => 0
  | _ => 0

abbrev bufTy : (tb : Table) → Fin (tcTables nBuf tb) → BufTy
  | .hbm, ⟨0, _⟩ => ⟨S4x256x256x256, .f32⟩
  | .hbm, ⟨1, _⟩ => ⟨S4x256x256x256, .f32⟩
  | .hbm, ⟨2, _⟩ => ⟨S512x512, .f32⟩
  | .hbm, ⟨3, _⟩ => ⟨S4x256x256x256, .f32⟩
  | .hbm, ⟨4, _⟩ => ⟨S4x256x256x256, .f32⟩
  | .hbm, ⟨5, _⟩ => ⟨S4x256x256x512, .f32⟩
  | .hbm, ⟨6, _⟩ => ⟨S4x256x256x512, .f32⟩
  | .hbm, ⟨7, _⟩ => ⟨S4x256x256x256, .f32⟩
  | .hbm, ⟨8, _⟩ => ⟨S4x256x256x256, .f32⟩
  | .hbm, ⟨9, _⟩ => ⟨S4x256x256x256, .f32⟩
  | .hbm, ⟨10, _⟩ => ⟨S4x256x256x256, .f32⟩
  | .hbm, ⟨11, _⟩ => ⟨S1x4x256x256x256, .f32⟩
  | .hbm, ⟨12, _⟩ => ⟨S1x4x256x256x256, .f32⟩
  | .hbm, ⟨13, _⟩ => ⟨S2x4x256x256x256, .f32⟩
  | _, _ => ⟨S4x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]

class Facts₀ : Prop where
  transposes_S4x256x256x256_S4x256x256x256_0_2_3_1 : S4x256x256x256.Transposes [0, 2, 3, 1] S4x256x256x256
  concatenates_S4x256x256x256_S4x256x256x256_S4x256x256x512_d3 : Shape.Concatenates [S4x256x256x256, S4x256x256x256] S4x256x256x512 3
  slices_S4x256x256x512_S4x256x256x256_0_0_0_0 : S4x256x256x512.Slices ![0, 0, 0, 0] S4x256x256x256
  slices_S4x256x256x512_S4x256x256x256_0_0_0_256 : S4x256x256x512.Slices ![0, 0, 0, 256] S4x256x256x256
  transposes_S4x256x256x256_S4x256x256x256_0_3_1_2 : S4x256x256x256.Transposes [0, 3, 1, 2] S4x256x256x256
  bcast_S4x256x256x256_S1x4x256x256x256_1_2_3_4 : S4x256x256x256.BroadcastsInDim S1x4x256x256x256 (![1, 2, 3, 4] : Fin 4 → Fin S1x4x256x256x256.rank)
  concatenates_S1x4x256x256x256_S1x4x256x256x256_S2x4x256x256x256_d0 : Shape.Concatenates [S1x4x256x256x256, S1x4x256x256x256] S2x4x256x256x256 0
  dot_S4x256x256x512_S512x512_S4x256x256x512_3_1_012_0_n_n_wf : DotDims.WF S4x256x256x512 S512x512 S4x256x256x512 [3] [1] [0, 1, 2] [0] [] []

variable [Facts₀]

def dot_S4x256x256x512_S512x512_S4x256x256x512_3_1_012_0_n_n : DotDims S4x256x256x512 S512x512 S4x256x256x512 where
  lhsContracting := [3]
  rhsContracting := [1]
  lhsNonContracting := [0, 1, 2]
  rhsNonContracting := [0]
  lhsBatch := []
  rhsBatch := []
  wf := dot_S4x256x256x512_S512x512_S4x256x256x512_3_1_012_0_n_n_wf

class Facts : Prop extends Facts₀ where

variable [Facts]
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibUnitAxes.lean ====
/-
  Two leading unit axes added to or dropped from a matrix, read at an index given by coordinates.

  A block [1, 1, a, b] of a rank-4 array — one (batch, head) pair's a × b matrix — cast to [a, b] reads at (i, j) the block at
  (0, 0, i, j); and an [a, b] matrix cast back to [1, 1, a, b] reads at (u, u', i, j) the matrix at (i, j), whatever the two unit
  coordinates. Both are the row-major position computed on each side. (Beside the library's one-unit-axis forms.)
-/
import Idealize.ShloMosaic.Lib.ValueIdx
import Idealize.ShloMosaic.Lib.Pipeline.Value
import Idealize.ShloMosaic.Lib.ValueLayout

namespace UnitAxes

open Idealize.ShloMosaic Idealize.ShloMosaic.ValueIdx

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end UnitAxes
-- ==== Proof.Mix.lean ====
/-
  The mathematics of the kernel, with no program in sight.

  A 512 × 512 weight matrix W acts along the length-256 axis of two arrays "re" and "im" (a real block matrix applied to the
  real and imaginary parts of a signal).  With the 512 rows of W written as two halves s ∈ {0, 1} of 256 rows o, and its 512
  columns as a left half (columns k) and a right half (columns 256 + k), the result at (s, b, o, position) is

      Σ_{k < 256} W[256·s + o, k] · re[b, k, position]  +  Σ_{k < 256} W[256·s + o, 256 + k] · im[b, k, position].

  Stated twice: over a flat position p < 65536 with the two column halves of W given as separate 512 × 256 matrices (`mixAt`:
  what one launch of the kernel computes), and over a position (h, v) < 256 × 256 with W whole (`outAt`: the final result).
  The only laws used anywhere are that a sum over 512 terms is the sum of its two halves of 256, and that multiplication of
  extended reals commutes; neither needs a finite entry.
-/
import Idealize.ShloMosaic.PureOps.Ideal
import Idealize.ShloMosaic.Lib.ValueIdx

noncomputable section

open scoped BigOperators

namespace Cert.Dft

open Idealize.ShloMosaic Idealize.ShloMosaic.ValueIdx

/-- Row `256·s + o` of a 512-row matrix: row `o` of its half `s`. -/
def row (s : Fin 2) (o : Fin 256) : Fin 512 := ⟨s.val * 256 + o.val, by omega⟩

/-- Column `k` of the left half of 512 columns. -/
def lo (k : Fin 256) : Fin 512 := ⟨k.val, by omega⟩

/-- Column `256 + k`: column `k` of the right half. -/
def hi (k : Fin 256) : Fin 512 := ⟨256 + k.val, by omega⟩

theorem row_val (s : Fin 2) (o : Fin 256) : (row s o).val = s.val * 256 + o.val := rfl
theorem lo_val (k : Fin 256) : (lo k).val = k.val := rfl
theorem hi_val (k : Fin 256) : (hi k).val = 256 + k.val := rfl

/-- One entry of what a launch computes, from the two signals over flat positions and the two column halves of the weight. -/
def mixAt (re im : (⟨3, ![4, 256, 65536]⟩ : Shape).Idx → EReal) (wl wr : (⟨2, ![512, 256]⟩ : Shape).Idx → EReal)
    (s : Fin 2) (b : Fin 4) (o : Fin 256) (p : Fin 65536) : EReal :=
  (∑ k : Fin 256, wl (ix2 (row s o) k) * re (ix3 b k p)) + ∑ k : Fin 256, wr (ix2 (row s o) k) * im (ix3 b k p)

/-- The whole array a launch computes. -/
def mix (re im : (⟨3, ![4, 256, 65536]⟩ : Shape).Idx → EReal) (wl wr : (⟨2, ![512, 256]⟩ : Shape).Idx → EReal) :
    (⟨4, ![2, 4, 256, 65536]⟩ : Shape).Idx → EReal :=
  fun i => mixAt re im wl wr ⟨(i 0).val, (i 0).isLt⟩ ⟨(i 1).val, (i 1).isLt⟩ ⟨(i 2).val, (i 2).isLt⟩ ⟨(i 3).val, (i 3).isLt⟩

theorem mix_apply (re im : (⟨3, ![4, 256, 65536]⟩ : Shape).Idx → EReal) (wl wr : (⟨2, ![512, 256]⟩ : Shape).Idx → EReal)
    (s : Fin 2) (b : Fin 4) (o : Fin 256) (p : Fin 65536) :
    mix re im wl wr (ix4 s b o p) = mixAt re im wl wr s b o p := rfl

/-- One entry of the final result, from the two signals over positions (h, v) and the whole weight. -/
def outAt (re im : (⟨4, ![4, 256, 256, 256]⟩ : Shape).Idx → EReal) (w : (⟨2, ![512, 512]⟩ : Shape).Idx → EReal)
    (s : Fin 2) (b : Fin 4) (o h v : Fin 256) : EReal :=
  (∑ k : Fin 256, w (ix2 (row s o) (lo k)) * re (ix4 b k h v)) + ∑ k : Fin 256, w (ix2 (row s o) (hi k)) * im (ix4 b k h v)

/-- The final result as an array over (s, b, o, h, v). -/
def out (re im : (⟨4, ![4, 256, 256, 256]⟩ : Shape).Idx → EReal) (w : (⟨2, ![512, 512]⟩ : Shape).Idx → EReal) :
    (⟨5, ![2, 4, 256, 256, 256]⟩ : Shape).Idx → EReal :=
  fun i => outAt re im w ⟨(i 0).val, (i 0).isLt⟩ ⟨(i 1).val, (i 1).isLt⟩ ⟨(i 2).val, (i 2).isLt⟩ ⟨(i 3).val, (i 3).isLt⟩ ⟨(i 4).val, (i 4).isLt⟩

theorem out_apply (re im : (⟨4, ![4, 256, 256, 256]⟩ : Shape).Idx → EReal) (w : (⟨2, ![512, 512]⟩ : Shape).Idx → EReal)
    (s : Fin 2) (b : Fin 4) (o h v : Fin 256) :
    out re im w (ix5 s b o h v) = outAt re im w s b o h v := rfl

/-- A sum of 512 terms is the sum over the first 256 plus the sum over the last 256 — in any commutative additive monoid, so on
    the extended reals with no finiteness. -/
theorem sum_halves {M : Type*} [AddCommMonoid M] (f : Fin 512 → M) :
    ∑ j : Fin 512, f j = (∑ k : Fin 256, f (lo k)) + ∑ k : Fin 256, f (hi k) :=
  Fin.sum_univ_add (a := 256) (b := 256) f

/-- A row of 512 products, written signal-times-weight, is the two half rows written weight-times-signal. -/
theorem dot_halves (x w : Fin 512 → EReal) :
    ∑ j : Fin 512, x j * w j = (∑ k : Fin 256, w (lo k) * x (lo k)) + ∑ k : Fin 256, w (hi k) * x (hi k) := by
  rw [sum_halves]
  simp only [mul_comm]

end Cert.Dft

end
-- ==== Proof.Payload.lean ====
/-
  The kernel body's arithmetic, read at one entry.

  At a grid point the body holds a 256 × 2048 tile of each signal (with a leading unit axis) and the two 512 × 256 column halves
  of the weight.  It forms the 512 × 2048 matrix  (left half) · (re tile) + (right half) · (im tile)  — two plain matrix products
  into a zero accumulator, added — and stores its top 256 rows as plane 0 and its bottom 256 rows as plane 1 of a
  2 × 1 × 256 × 2048 block.  Over the extended reals the change of float format on the way into a product is the identity, so
  entry (r, l) of the matrix is  Σ_k left[r, k] · re[0, k, l] + Σ_k right[r, k] · im[0, k, l],  and entry (0, o, l) of plane s
  of the block is that at row r = 256·s + o.
-/
import proofs.«134203_j51857435132042_1_alg».proof.Proof.Gen.KernelIdeal.Skeleton
import proofs.«134203_j51857435132042_1_alg».proof.Proof.LibDotCols
import proofs.«134203_j51857435132042_1_alg».proof.Proof.LibUnitAxes
import proofs.«134203_j51857435132042_1_alg».proof.Proof.Mix
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Dft

/-- One of the body's two products at entry (r, l): the weight half's row r against column l of the signal tile. -/
theorem product_apply (w : Vec Ideal S512x256 .bf16) (x : Vec Ideal S1x256x2048 .f32) (r : Fin 512) (l : Fin 2048) :
    (matmul (F := Ideal) dot_S512x256_S256x2048_S512x2048_1_0_0_1_n_n none
      (shapeCast S512x256 w shapeCasts_S512x256_S512x256 : FVec Ideal S512x256 .bf16)
      (truncf .bf16 (shapeCast S256x2048 x shapeCasts_S1x256x2048_S256x2048 : FVec Ideal S256x2048 .f32) bitsLt_bf16_f32)
      (constant S512x2048 .f32 0x00000000#32)) (ix2 r l)
    = ∑ k : Fin 256, w (ix2 r k) * x (ix3 (0 : Fin 1) k l) := by
  refine (Cert.Lib.DotCols.matmul_cols_apply _ rfl none _ _ r l).trans ?_
  refine Finset.sum_congr rfl fun k _ => ?_
  rw [shapeCast_self]
  exact congrArg (w (ix2 r k) * ·) (shapeCast_1ab_ab_apply x shapeCasts_S1x256x2048_S256x2048 k l)

/-- The 512 × 2048 matrix the body forms, at entry (r, l). -/
theorem pay1_apply (x0 x1 : Vec Ideal S1x256x2048 .f32) (x2 x3 : Vec Ideal S512x256 .bf16) (r : Fin 512) (l : Fin 2048) :
    k0_pay1 (F := Ideal) x0 x1 x2 x3 (ix2 r l)
      = (∑ k : Fin 256, x2 (ix2 r k) * x0 (ix3 (0 : Fin 1) k l)) + ∑ k : Fin 256, x3 (ix2 r k) * x1 (ix3 (0 : Fin 1) k l) := by
  unfold k0_pay1
  exact congrArg₂ (· + ·) (product_apply x2 x0 r l) (product_apply x3 x1 r l)

/-- Plane 0 of the block: the top 256 rows. -/
theorem pay2_apply (x0 x1 : Vec Ideal S1x256x2048 .f32) (x2 x3 : Vec Ideal S512x256 .bf16) (u u' : Fin 1) (o : Fin 256) (l : Fin 2048) :
    k0_pay2 (F := Ideal) x0 x1 x2 x3 (ix4 u u' o l)
      = (∑ k : Fin 256, x2 (ix2 (row 0 o) k) * x0 (ix3 (0 : Fin 1) k l)) + ∑ k : Fin 256, x3 (ix2 (row 0 o) k) * x1 (ix3 (0 : Fin 1) k l) := by
  unfold k0_pay2
  refine (UnitAxes.shapeCast_ab_11ab_apply _ shapeCasts_S256x2048_S1x1x256x2048 u u' o l).trans ?_
  refine (slice2_axis0_apply 0 _ slices_S512x2048_o0_0_S256x2048 o l (row 0 o) (by rw [row_val]; simp)).trans ?_
  exact pay1_apply x0 x1 x2 x3 (row 0 o) l

/-- Plane 1 of the block: the bottom 256 rows. -/
theorem pay3_apply (x0 x1 : Vec Ideal S1x256x2048 .f32) (x2 x3 : Vec Ideal S512x256 .bf16) (u u' : Fin 1) (o : Fin 256) (l : Fin 2048) :
    k0_pay3 (F := Ideal) x0 x1 x2 x3 (ix4 u u' o l)
      = (∑ k : Fin 256, x2 (ix2 (row 1 o) k) * x0 (ix3 (0 : Fin 1) k l)) + ∑ k : Fin 256, x3 (ix2 (row 1 o) k) * x1 (ix3 (0 : Fin 1) k l) := by
  unfold k0_pay3
  refine (UnitAxes.shapeCast_ab_11ab_apply _ shapeCasts_S256x2048_S1x1x256x2048 u u' o l).trans ?_
  refine (slice2_axis0_apply 256 _ slices_S512x2048_o256_0_S256x2048 o l (row 1 o) (by rw [row_val]; simp)).trans ?_
  exact pay1_apply x0 x1 x2 x3 (row 1 o) l

end Cert.KernelIdeal.Body

end
-- ==== Proof.Blocks.lean ====
/-
  From blocks to the array the launch leaves.

  Grid point (b, q) of the 4 × 32 grid reads the tile  re[b, :, 2048·q .. 2048·q + 2047]  (and the same tile of im) and both column
  halves of the weight whole, and writes the block  [0..1, b, :, 2048·q .. 2048·q + 2047]  of the 2 × 4 × 256 × 65536 output.
  The two stores of the body fill the two planes of that block, so the block is one function of the tiles; read through the
  window, each tile entry is the array entry at  (b, k, 2048·q + l),  and so the block written at the point is the block of the
  one whole-array function `mix` of the arrays the launch finds.  The 128 blocks tile the output, hence the output array after the
  launch is `mix` of those arrays.
-/
import proofs.«134203_j51857435132042_1_alg».proof.Proof.Gen.KernelIdeal.Frame
import proofs.«134203_j51857435132042_1_alg».proof.Proof.Payload

set_option maxRecDepth 16384

noncomputable section

open scoped BigOperators

namespace Cert.KernelIdeal.Blocks

open Cert.KernelIdeal Cert.KernelIdeal.Gen Cert.KernelIdeal.Body Idealize.ShloMosaic Idealize.ShloMosaic.TcCoe Idealize.ShloMosaic.ValueIdx
open Idealize.SL.Sem Cert.Dft
open Idealize.ShloMosaic.Pipeline (Dat Cfg Window)

/-! ## The block the body leaves, as one function of its tiles -/

/-- Entry (s, ·, o, l) of the block, from the two signal tiles and the two weight halves. -/
def blockFn (x0 x1 : Vec Ideal S1x256x2048 .f32) (x2 x3 : Vec Ideal S512x256 .bf16) : Vec Ideal S2x1x256x2048 .f32 := fun y =>
  (∑ k : Fin 256, x2 (ix2 (row ⟨(y 0).val, (y 0).isLt⟩ ⟨(y 2).val, (y 2).isLt⟩) k) * x0 (ix3 (0 : Fin 1) k ⟨(y 3).val, (y 3).isLt⟩))
    + ∑ k : Fin 256, x3 (ix2 (row ⟨(y 0).val, (y 0).isLt⟩ ⟨(y 2).val, (y 2).isLt⟩) k) * x1 (ix3 (0 : Fin 1) k ⟨(y 3).val, (y 3).isLt⟩)

theorem hz3 : (![0, 0, 0] : Fin 3 → Nat) = fun _ => 0 := funext fun a => by fin_cases a <;> rfl
theorem hz2 : (![0, 0] : Fin 2 → Nat) = fun _ => 0 := funext fun a => by fin_cases a <;> rfl

/-- The store into plane 1 carries the block function's values there. -/
theorem plane1 (x0 x1 : Vec Ideal S1x256x2048 .f32) (x2 x3 : Vec Ideal S512x256 .bf16) (x : S1x1x256x2048.Idx) :
    k0_pay3 (F := Ideal) x0 x1 x2 x3 x = blockFn x0 x1 x2 x3 (r0_3.emb x) := by
  obtain ⟨u, u', o, l, rfl⟩ : ∃ (u u' : Fin 1) (o : Fin 256) (l : Fin 2048), x = ix4 u u' o l := ⟨x 0, x 1, x 2, x 3, eq_ix4 x⟩
  refine (pay3_apply x0 x1 x2 x3 u u' o l).trans ?_
  have e : r0_3.emb (ix4 u u' o l) = ix4 (1 : Fin 2) u' o l := funext fun a => Fin.ext (by
    match a with
    | ⟨0, _⟩ => show 1 + 1 * u.val = 1; omega
    | ⟨1, _⟩ => show 0 + 1 * u'.val = u'.val; omega
    | ⟨2, _⟩ => show 0 + 1 * o.val = o.val; omega
    | ⟨3, _⟩ => show 0 + 1 * l.val = l.val; omega)
  rw [e]
  rfl

/-- The store into plane 0 carries the block function's values there. -/
theorem plane0 (x0 x1 : Vec Ideal S1x256x2048 .f32) (x2 x3 : Vec Ideal S512x256 .bf16) (x : S1x1x256x2048.Idx) :
    k0_pay2 (F := Ideal) x0 x1 x2 x3 x = blockFn x0 x1 x2 x3 (r0_2.emb x) := by
  obtain ⟨u, u', o, l, rfl⟩ : ∃ (u u' : Fin 1) (o : Fin 256) (l : Fin 2048), x = ix4 u u' o l := ⟨x 0, x 1, x 2, x 3, eq_ix4 x⟩
  refine (pay2_apply x0 x1 x2 x3 u u' o l).trans ?_
  have e : r0_2.emb (ix4 u u' o l) = ix4 (0 : Fin 2) u' o l := funext fun a => Fin.ext (by
    match a with
    | ⟨0, _⟩ => show 0 + 1 * u.val = 0; omega
    | ⟨1, _⟩ => show 0 + 1 * u'.val = u'.val; omega
    | ⟨2, _⟩ => show 0 + 1 * o.val = o.val; omega
    | ⟨3, _⟩ => show 0 + 1 * l.val = l.val; omega)
  rw [e]
  rfl

/-- What the body leaves in the output's buffer is the block function of the tiles it loaded. -/
theorem out_eq_blockFn (x0 x1 : Vec Ideal S1x256x2048 .f32) (x2 x3 : Vec Ideal S512x256 .bf16) :
    out0_4 (F := Ideal) x0 x1 x2 x3 = blockFn x0 x1 x2 x3 := by
  funext y
  unfold out0_4
  rw [View.ld_unit_zero (S := S1x256x2048) hz3, View.ld_unit_zero (S := S1x256x2048) hz3,
    View.ld_unit_zero (S := S512x256) hz2, View.ld_unit_zero (S := S512x256) hz2]
  refine View.canon_apply_of_pieces (Val := Elt Ideal) (blockFn x0 x1 x2 x3) _ ?_ y (cover0_4 _ _ y)
  intro p hp
  rcases List.mem_cons.mp hp with rfl | hp
  · exact plane1 x0 x1 x2 x3
  · rcases List.mem_singleton.mp hp with rfl
    exact plane0 x0 x1 x2 x3

/-! ## The index maps, decided over the 128 points -/

/-- The output block sits at (0, b, 0, q); the signal tiles at (b, 0, q); the weight halves at (0, 0). -/
theorem idx_facts : ∀ t : Fin cfg0.N,
    win0_4.index t (0 : Fin 4) = 0 ∧ win0_4.index t (2 : Fin 4) = 0
    ∧ win0_0.index t (0 : Fin 3) = win0_4.index t (1 : Fin 4) ∧ win0_0.index t (1 : Fin 3) = 0 ∧ win0_0.index t (2 : Fin 3) = win0_4.index t (3 : Fin 4)
    ∧ win0_1.index t (0 : Fin 3) = win0_4.index t (1 : Fin 4) ∧ win0_1.index t (1 : Fin 3) = 0 ∧ win0_1.index t (2 : Fin 3) = win0_4.index t (3 : Fin 4)
    ∧ win0_2.index t (0 : Fin 2) = 0 ∧ win0_2.index t (1 : Fin 2) = 0
    ∧ win0_3.index t (0 : Fin 2) = 0 ∧ win0_3.index t (1 : Fin 2) = 0
    ∧ win0_4.index t (1 : Fin 4) < 4 ∧ win0_4.index t (3 : Fin 4) < 32 :=
  (by decide +kernel : ∀ t : Fin grid0.N, _)

/-- Every (b, q) is some point's. -/
theorem idx_onto : ∀ (b : Fin 4) (q : Fin 32), ∃ t : Fin cfg0.N, win0_4.index t = ![0, b.val, 0, q.val] :=
  (by decide +kernel : ∀ (b : Fin 4) (q : Fin 32), ∃ t : Fin grid0.N, win0_4.index t = ![0, b.val, 0, q.val])

variable (m : (ℓ : Loc nD τ sig) → Buf (Elt Ideal) ℓ) (ρ : Dev nD → PrngReg)

/-- The array the launch leaves, from the arrays it finds. -/
abbrev launched (c : Dev nD) : S2x4x256x65536.Idx → EReal :=
  mix (V m c main_v0) (V m c main_v1) (V m c main_v3) (V m c main_v5)

/-- WHAT POINT `t` WRITES BACK is block `t` of `mix` of the arrays as the launch finds them. -/
theorem flushed_eq (c : Dev nD) (t : Fin cfg0.N) :
    (dats m 0 c).flushed 4 t = ((cfg0.win 4).blk t).view.read (Elt Ideal) (launched m c) := by
  show (cfg0.win 4).cut (grid0.coords t) ((dats m 0 c).after 4 t) = _
  rw [after0_4, out_eq_blockFn]
  obtain ⟨e40, e42, e00, e01, e02, e10, e11, e12, e20, e21, e30, e31, b41, b43⟩ := idx_facts t
  funext j
  show blockFn (iblk m c 0 t) (iblk m c 1 t) (iblk m c 2 t) (iblk m c 3 t) j = launched m c (((cfg0.win 4).blk t).view.emb j)
  have hj0 : (j 0).val < 2 := (j 0).isLt
  have hj1 : (j 1).val < 1 := (j 1).isLt
  have hj2 : (j 2).val < 256 := (j 2).isLt
  have hj3 : (j 3).val < 2048 := (j 3).isLt
  unfold blockFn launched mix mixAt
  refine congrArg₂ (· + ·) (Finset.sum_congr rfl fun k _ => congrArg₂ (· * ·) ?_ ?_)
    (Finset.sum_congr rfl fun k _ => congrArg₂ (· * ·) ?_ ?_)
  · show V m c main_v3 (((cfg0.win 2).blk t).view.emb _) = V m c main_v3 _
    refine congrArg _ (funext fun a => Fin.ext ?_)
    match a with
    | ⟨0, _⟩ =>
      show win0_2.index t (0 : Fin 2) * 512 + 1 * ((j 0).val * 256 + (j 2).val)
        = (win0_4.index t (0 : Fin 4) * 2 + 1 * (j 0).val) * 256 + (win0_4.index t (2 : Fin 4) * 256 + 1 * (j 2).val)
      omega
    | ⟨1, _⟩ => show win0_2.index t (1 : Fin 2) * 256 + 1 * k.val = k.val; omega
  · show V m c main_v0 (((cfg0.win 0).blk t).view.emb _) = V m c main_v0 _
    refine congrArg _ (funext fun a => Fin.ext ?_)
    match a with
    | ⟨0, _⟩ => show win0_0.index t (0 : Fin 3) * 1 + 1 * 0 = win0_4.index t (1 : Fin 4) * 1 + 1 * (j 1).val; omega
    | ⟨1, _⟩ => show win0_0.index t (1 : Fin 3) * 256 + 1 * k.val = k.val; omega
    | ⟨2, _⟩ => show win0_0.index t (2 : Fin 3) * 2048 + 1 * (j 3).val = win0_4.index t (3 : Fin 4) * 2048 + 1 * (j 3).val; omega
  · show V m c main_v5 (((cfg0.win 3).blk t).view.emb _) = V m c main_v5 _
    refine congrArg _ (funext fun a => Fin.ext ?_)
    match a with
    | ⟨0, _⟩ =>
      show win0_3.index t (0 : Fin 2) * 512 + 1 * ((j 0).val * 256 + (j 2).val)
        = (win0_4.index t (0 : Fin 4) * 2 + 1 * (j 0).val) * 256 + (win0_4.index t (2 : Fin 4) * 256 + 1 * (j 2).val)
      omega
    | ⟨1, _⟩ => show win0_3.index t (1 : Fin 2) * 256 + 1 * k.val = k.val; omega
  · show V m c main_v1 (((cfg0.win 1).blk t).view.emb _) = V m c main_v1 _
    refine congrArg _ (funext fun a => Fin.ext ?_)
    match a with
    | ⟨0, _⟩ => show win0_1.index t (0 : Fin 3) * 1 + 1 * 0 = win0_4.index t (1 : Fin 4) * 1 + 1 * (j 1).val; omega
    | ⟨1, _⟩ => show win0_1.index t (1 : Fin 3) * 256 + 1 * k.val = k.val; omega
    | ⟨2, _⟩ => show win0_1.index t (2 : Fin 3) * 2048 + 1 * (j 3).val = win0_4.index t (3 : Fin 4) * 2048 + 1 * (j 3).val; omega

/-- An index of the output array is in point `t`'s block iff each coordinate is in the block's range on its axis. -/
theorem mem_blk (t : Fin cfg0.N) (i : S2x4x256x65536.Idx) :
    i ∈ ((cfg0.win 4).blk t).view.set ↔ ∀ a : Fin 4, win0_4.index t a * S2x1x256x2048.size a ≤ (i a).val
      ∧ (i a).val < win0_4.index t a * S2x1x256x2048.size a + S2x1x256x2048.size a := by
  show i ∈ ((View.whole main_v6).slice (win0_4.rect t)).set ↔ _
  rw [View.set_slice_whole, Rect.mem_set_unit]
  exact Iff.rfl

/-- The blocks tile the output: index (s, b, o, p) lies in the block of the point with (b, p / 2048). -/
theorem cover (i : S2x4x256x65536.Idx) : ∃ t : Fin cfg0.N, (cfg0.win 4).flush t = true ∧ i ∈ ((cfg0.win 4).blk t).view.set := by
  have hi0 : (i 0).val < 2 := (i 0).isLt
  have hi1 : (i 1).val < 4 := (i 1).isLt
  have hi2 : (i 2).val < 256 := (i 2).isLt
  have hi3 : (i 3).val < 65536 := (i 3).isLt
  obtain ⟨t, ht⟩ := idx_onto ⟨(i 1).val, hi1⟩ ⟨(i 3).val / 2048, by omega⟩
  have q0 : win0_4.index t (0 : Fin 4) = 0 := congrFun ht 0
  have q1 : win0_4.index t (1 : Fin 4) = (i 1).val := congrFun ht 1
  have q2 : win0_4.index t (2 : Fin 4) = 0 := congrFun ht 2
  have q3 : win0_4.index t (3 : Fin 4) = (i 3).val / 2048 := congrFun ht 3
  refine ⟨t, flush0_4 t, ?_⟩
  rw [mem_blk]
  intro a
  match a with
  | ⟨0, _⟩ => show win0_4.index t (0 : Fin 4) * 2 ≤ (i 0).val ∧ (i 0).val < win0_4.index t (0 : Fin 4) * 2 + 2; omega
  | ⟨1, _⟩ => show win0_4.index t (1 : Fin 4) * 1 ≤ (i 1).val ∧ (i 1).val < win0_4.index t (1 : Fin 4) * 1 + 1; omega
  | ⟨2, _⟩ => show win0_4.index t (2 : Fin 4) * 256 ≤ (i 2).val ∧ (i 2).val < win0_4.index t (2 : Fin 4) * 256 + 256; omega
  | ⟨3, _⟩ => show win0_4.index t (3 : Fin 4) * 2048 ≤ (i 3).val ∧ (i 3).val < win0_4.index t (3 : Fin 4) * 2048 + 2048; omega

/-- THE ARRAY AFTER THE LAUNCH is `mix` of the arrays the launch finds. -/
theorem final (c : Dev nD) : (dats m 0 c).arrAt 4 cfg0.N = launched m c :=
  (dats m 0 c).arrAt_eq_of_cover 4 (launched m c) (fun t _ => flushed_eq m c t) cover

end Cert.KernelIdeal.Blocks

end
-- ==== Proof.Layout.lean ====
/-
  The layout around the launch, with no program in sight.

  Before the launch the host merges the two trailing 256 × 256 axes of each signal into one axis of 65536 positions
  (position (h, v) becomes 256·h + v), cuts the 512 × 512 weight into its left and right halves of 256 columns, and rounds the
  halves to the narrower float format (the identity on extended reals).  After it, the host splits the 65536 positions back into
  256 × 256.  Reading `mix` of the prepared arrays at position 256·h + v therefore gives exactly `out` of the original arrays at
  (h, v): the same two sums of 256 products, entry by entry.
-/
import proofs.«134203_j51857435132042_1_alg».proof.Proof.Mix
import Idealize.ShloMosaic.Lib.ValueLayout
import Idealize.ShloMosaic.Lib.Pipeline.Value

noncomputable section

open scoped BigOperators

namespace Cert.Dft

open Idealize.ShloMosaic Idealize.ShloMosaic.ValueIdx

/-- Position (h, v) of the 256 × 256 plane, flattened. -/
def flat (h v : Fin 256) : Fin 65536 := ⟨h.val * 256 + v.val, by omega⟩

theorem flat_val (h v : Fin 256) : (flat h v).val = h.val * 256 + v.val := rfl

/-- A signal with its two trailing axes merged, read at a flattened position, is the signal at the position. -/
theorem merged_apply {α : Type} (x : (⟨4, ![4, 256, 256, 256]⟩ : Shape).Idx → α)
    (hc : (⟨4, ![4, 256, 256, 256]⟩ : Shape).ShapeCasts ⟨3, ![4, 256, 65536]⟩) (b : Fin 4) (k h v : Fin 256) :
    shapeCast ⟨3, ![4, 256, 65536]⟩ x hc (ix3 b k (flat h v)) = x (ix4 b k h v) :=
  shapeCast_apply x hc _ _ (by
    rw [Shape.rowMajor_val_four, Shape.rowMajor_val_three]
    show ((b.val * 256 + k.val) * 256 + h.val) * 256 + v.val = (b.val * 256 + k.val) * 65536 + (h.val * 256 + v.val)
    omega)

/-- An array over flattened positions with that axis split back, read at (h, v), is the array at the flattened position. -/
theorem split_apply {α : Type} (y : (⟨4, ![2, 4, 256, 65536]⟩ : Shape).Idx → α)
    (hc : (⟨4, ![2, 4, 256, 65536]⟩ : Shape).ShapeCasts ⟨5, ![2, 4, 256, 256, 256]⟩) (s : Fin 2) (b : Fin 4) (o h v : Fin 256) :
    shapeCast ⟨5, ![2, 4, 256, 256, 256]⟩ y hc (ix5 s b o h v) = y (ix4 s b o (flat h v)) :=
  shapeCast_apply y hc _ _ (by
    rw [Shape.rowMajor_val_four, Shape.rowMajor_val_five]
    show ((s.val * 4 + b.val) * 256 + o.val) * 65536 + (h.val * 256 + v.val)
      = (((s.val * 4 + b.val) * 256 + o.val) * 256 + h.val) * 256 + v.val
    omega)

/-- THE LAYOUT STEP: `mix` of the merged signals and the two rounded column halves of the weight, split back, is `out` of the
    signals and the weight. -/
theorem split_mix_eq_out (re im : FVec Ideal ⟨4, ![4, 256, 256, 256]⟩ .f32) (w : FVec Ideal ⟨2, ![512, 512]⟩ .f32)
    (hm : (⟨4, ![4, 256, 256, 256]⟩ : Shape).ShapeCasts ⟨3, ![4, 256, 65536]⟩)
    (hl : (⟨2, ![512, 512]⟩ : Shape).Slices ![0, 0] ⟨2, ![512, 256]⟩)
    (hr : (⟨2, ![512, 512]⟩ : Shape).Slices ![0, 256] ⟨2, ![512, 256]⟩)
    (hb : FTy.bits .bf16 < FTy.bits .f32)
    (hs : (⟨4, ![2, 4, 256, 65536]⟩ : Shape).ShapeCasts ⟨5, ![2, 4, 256, 256, 256]⟩) :
    shapeCast ⟨5, ![2, 4, 256, 256, 256]⟩
      (mix (shapeCast ⟨3, ![4, 256, 65536]⟩ re hm) (shapeCast ⟨3, ![4, 256, 65536]⟩ im hm)
        (truncf .bf16 (extractStridedSlice ⟨2, ![512, 256]⟩ ![0, 0] w hl : FVec Ideal ⟨2, ![512, 256]⟩ .f32) hb)
        (truncf .bf16 (extractStridedSlice ⟨2, ![512, 256]⟩ ![0, 256] w hr : FVec Ideal ⟨2, ![512, 256]⟩ .f32) hb)) hs
      = out re im w := by
  funext i
  obtain ⟨s, b, o, h, v, rfl⟩ : ∃ (s : Fin 2) (b : Fin 4) (o h v : Fin 256), i = ix5 s b o h v :=
    ⟨i 0, i 1, i 2, i 3, i 4, eq_ix5 i⟩
  refine (split_apply _ hs s b o h v).trans ?_
  rw [mix_apply, out_apply]
  unfold mixAt outAt
  refine congrArg₂ (· + ·) (Finset.sum_congr rfl fun k _ => congrArg₂ (· * ·) ?_ ?_)
    (Finset.sum_congr rfl fun k _ => congrArg₂ (· * ·) ?_ ?_)
  · exact slice2_axis1_apply 0 w hl (row s o) k (lo k) (by rw [lo_val]; omega)
  · exact merged_apply re hm b k h v
  · exact slice2_axis1_apply 256 w hr (row s o) k (hi k) (hi_val k)
  · exact merged_apply im hm b k h v

end Cert.Dft

end
-- ==== Proof.KernelRun.lean ====
/-
  The kernel's program, run and read back.

  The host prepares the launch's four arrays from the three arguments (the two signals with their trailing axes merged, the two
  rounded column halves of the weight), the launch leaves `mix` of them in its output array, and the host splits that array's
  position axis back.  So the program's result is the split of `mix` of the prepared arrays, which the layout step identifies
  with `out` of the arguments; the arguments themselves are never written.
-/
import proofs.«134203_j51857435132042_1_alg».proof.Proof.Blocks
import proofs.«134203_j51857435132042_1_alg».proof.Proof.Layout
import Idealize.ShloMosaic.Lib.StableHlo.Run

set_option maxRecDepth 16384

noncomputable section

namespace Cert.KernelIdeal.Whole

open Cert.KernelIdeal Cert.KernelIdeal.Gen Cert.KernelIdeal.Blocks Idealize.ShloMosaic Idealize.ShloMosaic.TcCoe Idealize.ShloMosaic.ValueIdx
open Idealize.SL.Sem Idealize.ShloMosaic.StableHlo Cert.Dft

variable (m : (ℓ : Loc nD τ sig) → Buf (Elt Ideal) ℓ) (ρ : Dev nD → PrngReg)

/-! ## The arrays the launch finds -/

/-- The first signal, its trailing axes merged. -/
theorem found_re (c : Dev nD) : (V m c main_v0 : S4x256x65536.Idx → EReal)
    = shapeCast S4x256x65536 (m ((c : Thread nD τ).loc main_arg0)) shapeCasts_S4x256x256x256_S4x256x65536 := by
  show StableHlo.after hostOps0 (fun b => m (c, b)) (Proc.devRef .tc main_v0) = _
  after_results
  rfl

/-- The second signal, its trailing axes merged. -/
theorem found_im (c : Dev nD) : (V m c main_v1 : S4x256x65536.Idx → EReal)
    = shapeCast S4x256x65536 (m ((c : Thread nD τ).loc main_arg1)) shapeCasts_S4x256x256x256_S4x256x65536 := by
  show StableHlo.after hostOps0 (fun b => m (c, b)) (Proc.devRef .tc main_v1) = _
  after_results
  rfl

/-- The weight's left 256 columns, rounded. -/
theorem found_left (c : Dev nD) : (V m c main_v3 : S512x256.Idx → EReal)
    = truncf (F := Ideal) .bf16 (extractStridedSlice S512x256 ![0, 0] (m ((c : Thread nD τ).loc main_arg2)) slices_S512x512_S512x256_0_0 : FVec Ideal S512x256 .f32) bitsLt_bf16_f32 := by
  show StableHlo.after hostOps0 (fun b => m (c, b)) (Proc.devRef .tc main_v3) = _
  after_results

/-- The weight's right 256 columns, rounded. -/
theorem found_right (c : Dev nD) : (V m c main_v5 : S512x256.Idx → EReal)
    = truncf (F := Ideal) .bf16 (extractStridedSlice S512x256 ![0, 256] (m ((c : Thread nD τ).loc main_arg2)) slices_S512x512_S512x256_0_256 : FVec Ideal S512x256 .f32) bitsLt_bf16_f32 := by
  show StableHlo.after hostOps0 (fun b => m (c, b)) (Proc.devRef .tc main_v5) = _
  after_results

/-! ## The result after the host's last line -/

/-- The launch's output array as the last line finds it. -/
theorem launched_found (c : Dev nD) :
    Pipeline.withArrays spec0 c (V0 m c) (fun w => (dats m 0 c).arrAt w cfg0.N) (Proc.devRef .tc main_v6) = launched m c :=
  (Pipeline.withArrays_arr spec0 launch0.win.arr_inj c _ _ 4).trans (final m c)

/-- The program's result: the launch's array with its position axis split back. -/
theorem result_eq (c : Dev nD) :
    (Pipeline.afterTail₀ cfgs (dats m) 0 (V0 m) [hostOps1] c main_v7 : S2x4x256x256x256.Idx → EReal)
      = out (m ((c : Thread nD τ).loc main_arg0)) (m ((c : Thread nD τ).loc main_arg1)) (m ((c : Thread nD τ).loc main_arg2)) := by
  unfold Pipeline.afterTail₀
  show StableHlo.after hostOps1 _ (Proc.devRef .tc main_v7) = _
  after_results
  show shapeCast S2x4x256x256x256 (Pipeline.withArrays spec0 c (V0 m c) (fun w => (dats m 0 c).arrAt w cfg0.N) (Proc.devRef .tc main_v6)) shapeCasts_S2x4x256x65536_S2x4x256x256x256 = _
  rw [launched_found]
  unfold launched
  rw [found_re, found_im, found_left, found_right]
  exact split_mix_eq_out _ _ _ _ _ _ _ _

/-! ## The run -/

/-- Every weakly fair execution of the kernel's program ends with its result at `out` of the arguments and the arguments as
    they were. -/
theorem run : θ_run defs (onTc (τ := τ) (main (F := Ideal))) ⟨m, fun _ => 0, ρ⟩ fun r => ∀ c : Dev nD,
      r.2.mem ((c.tc : Thread nD τ).loc main_v7)
        = out (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefSide.lean ====
/-
  The reference, read at one entry.

  The reference moves the length-256 axis of each signal last, joins the two signals along it into 512 entries (re first, im
  second), multiplies by the transposed weight — entry r of the product at a position is  Σ_{j < 512} x[b, h, v, j] · W[r, j]  —,
  cuts the 512 outputs into two halves of 256, moves each back in front of the position axes and stacks the halves.  So at
  (s, b, o, h, v) it holds the row r = 256·s + o of that product.  A row of 512 products is the sum of its two halves of 256, the
  first half reading re and the second im, and products commute: this is `out`.
-/
import proofs.«134203_j51857435132042_1_alg».proof.Proof.Gen.ReferenceIdeal.Read
import proofs.«134203_j51857435132042_1_alg».proof.Proof.Mix

noncomputable section

open scoped BigOperators

namespace Cert.ReferenceIdeal.Entry

open Cert.ReferenceIdeal Cert.ReferenceIdeal.Gen Cert.ReferenceIdeal.Read Idealize.ShloMosaic Idealize.ShloMosaic.ValueIdx Cert.Dft

variable (re im : (⟨S4x256x256x256, .f32⟩ : BufTy).Contents (Elt Ideal)) (w : (⟨S512x512, .f32⟩ : BufTy).Contents (Elt Ideal))

/-- The joined signal's first 256 entries along the last axis are re's, with the length-256 axis moved back. -/
theorem joined_lo (b : Fin 4) (h v k : Fin 256) :
    val_main_v2 (F := Ideal) re im (ix4 b h v (lo k)) = re (ix4 b k h v) := by
  unfold val_main_v2
  refine (concatenate_pair_apply_left (s₁ := S4x256x256x256) (s₂ := S4x256x256x256) 3 _ _ _ (ix4 b h v (lo k)) rfl (ix4 b h v k) (fun a => by
    match a with
    | ⟨0, _⟩ => rfl
    | ⟨1, _⟩ => rfl
    | ⟨2, _⟩ => rfl
    | ⟨3, _⟩ => rfl)).trans ?_
  refine (val_main_v0_apply re (ix4 b h v k)).trans ?_
  exact congrArg re (funext fun a => Fin.ext (by
    match a with
    | ⟨0, _⟩ => rfl
    | ⟨1, _⟩ => rfl
    | ⟨2, _⟩ => rfl
    | ⟨3, _⟩ => rfl))

/-- Its last 256 entries are im's. -/
theorem joined_hi (b : Fin 4) (h v k : Fin 256) :
    val_main_v2 (F := Ideal) re im (ix4 b h v (hi k)) = im (ix4 b k h v) := by
  unfold val_main_v2
  refine (concatenate_pair_apply_right (s₁ := S4x256x256x256) (s₂ := S4x256x256x256) 3 _ _ _ (ix4 b h v (hi k)) rfl rfl (ix4 b h v k) (fun a ha => by
    match a with
    | ⟨0, _⟩ => rfl
    | ⟨1, _⟩ => rfl
    | ⟨2, _⟩ => rfl
    | ⟨3, _⟩ => exact absurd rfl ha) (by show k.val + 256 = 256 + k.val; omega)).trans ?_
  refine (val_main_v1_apply im (ix4 b h v k)).trans ?_
  exact congrArg im (funext fun a => Fin.ext (by
    match a with
    | ⟨0, _⟩ => rfl
    | ⟨1, _⟩ => rfl
    | ⟨2, _⟩ => rfl
    | ⟨3, _⟩ => rfl))

/-- Row r of the product at a position: the two half rows, weight first. -/
theorem product_row (b : Fin 4) (h v : Fin 256) (r : Fin 512) :
    val_main_v3 (F := Ideal) re im w (ix4 b h v r)
      = (∑ k : Fin 256, w (ix2 r (lo k)) * re (ix4 b k h v)) + ∑ k : Fin 256, w (ix2 r (hi k)) * im (ix4 b k h v) := by
  refine (val_main_v3_apply re im w (ix4 b h v r)).trans ?_
  have el : ∀ j : Fin 512, lidx_main_v3 (ix4 b h v r) j = ix4 b h v j := fun j => funext fun a => Fin.ext (by
    match a with
    | ⟨0, _⟩ => rfl
    | ⟨1, _⟩ => rfl
    | ⟨2, _⟩ => rfl
    | ⟨3, _⟩ => rfl)
  have er : ∀ j : Fin 512, ridx_main_v3 (ix4 b h v r) j = ix2 r j := fun j => funext fun a => Fin.ext (by
    match a with
    | ⟨0, _⟩ => rfl
    | ⟨1, _⟩ => rfl)
  simp only [el, er]
  refine (dot_halves (fun j => val_main_v2 (F := Ideal) re im (ix4 b h v j)) (fun j => w (ix2 r j))).trans ?_
  simp only [joined_lo, joined_hi]

/-- The first half of the outputs, moved back in front of the positions and given a leading unit axis. -/
theorem half0 (u : Fin 1) (b : Fin 4) (o h v : Fin 256) :
    val_main_v8 (F := Ideal) re im w (ix5 u b o h v) = val_main_v3 (F := Ideal) re im w (ix4 b h v (row 0 o)) := by
  refine (val_main_v8_apply re im w _).trans ?_
  refine (val_main_v6_apply re im w _).trans ?_
  refine (val_main_v4_apply re im w _).trans ?_
  exact congrArg (val_main_v3 (F := Ideal) re im w) (funext fun a => Fin.ext (by
    match a with
    | ⟨0, _⟩ => rfl
    | ⟨1, _⟩ => rfl
    | ⟨2, _⟩ => rfl
    | ⟨3, _⟩ => show o.val = 0 * 256 + o.val; omega))

/-- The second half. -/
theorem half1 (u : Fin 1) (b : Fin 4) (o h v : Fin 256) :
    val_main_v9 (F := Ideal) re im w (ix5 u b o h v) = val_main_v3 (F := Ideal) re im w (ix4 b h v (row 1 o)) := by
  refine (val_main_v9_apply re im w _).trans ?_
  refine (val_main_v7_apply re im w _).trans ?_
  refine (val_main_v5_apply re im w _).trans ?_
  exact congrArg (val_main_v3 (F := Ideal) re im w) (funext fun a => Fin.ext (by
    match a with
    | ⟨0, _⟩ => rfl
    | ⟨1, _⟩ => rfl
    | ⟨2, _⟩ => rfl
    | ⟨3, _⟩ => show 256 + o.val = 1 * 256 + o.val; omega))

/-- THE REFERENCE IS `out`. -/
theorem reference_eq_out : val_main_v10 (F := Ideal) re im w = out re im w := by
  funext i
  obtain ⟨s, b, o, h, v, rfl⟩ : ∃ (s : Fin 2) (b : Fin 4) (o h v : Fin 256), i = ix5 s b o h v :=
    ⟨i 0, i 1, i 2, i 3, i 4, eq_ix5 i⟩
  rw [out_apply]
  unfold outAt val_main_v10
  match s with
  | ⟨0, _⟩ =>
    refine (concatenate_pair_apply_left (s₁ := S1x4x256x256x256) (s₂ := S1x4x256x256x256) 0 _ _ _ (ix5 (⟨0, by omega⟩ : Fin 2) b o h v) rfl (ix5 (0 : Fin 1) b o h v) (fun a => by
      match a with
      | ⟨0, _⟩ => rfl
      | ⟨1, _⟩ => rfl
      | ⟨2, _⟩ => rfl
      | ⟨3, _⟩ => rfl
      | ⟨4, _⟩ => rfl)).trans ?_
    exact (half0 re im w 0 b o h v).trans (product_row re im w b h v (row 0 o))
  | ⟨1, _⟩ =>
    refine (concatenate_pair_apply_right (s₁ := S1x4x256x256x256) (s₂ := S1x4x256x256x256) 0 _ _ _ (ix5 (⟨1, by omega⟩ : Fin 2) b o h v) rfl rfl (ix5 (0 : Fin 1) b o h v) (fun a ha => by
      match a with
      | ⟨0, _⟩ => exact absurd rfl ha
      | ⟨1, _⟩ => rfl
      | ⟨2, _⟩ => rfl
      | ⟨3, _⟩ => rfl
      | ⟨4, _⟩ => rfl) rfl).trans ?_
    exact (half1 re im w 0 b o h v).trans (product_row re im w b h v (row 1 o))

end Cert.ReferenceIdeal.Entry

end
-- ==== Proof.lean ====
/-
  The kernel applies a 512 × 512 real matrix W (the real form of a length-256 complex transform) along the length-256 axis of
  two signals re, im of shape 4 × 256 × 256 × 256 and returns the two halves of the 512 outputs stacked: at (s, b, o, h, v)

      Σ_{k < 256} W[256·s + o, k] · re[b, k, h, v]  +  Σ_{k < 256} W[256·s + o, 256 + k] · im[b, k, h, v].

  The kernel gets there without moving the length-256 axis: it merges the two position axes (h, v) into one of 65536 positions,
  cuts W into its left and right 256 columns, and over a 4 × 32 grid of tiles of 2048 positions forms
  (left half) · (re tile) + (right half) · (im tile) by two matrix products; the reference moves the length-256 axis last, joins
  re and im into 512 entries and takes one product of 512 terms with W transposed.  Over the extended reals the two agree entry by
  entry, because a sum of 512 terms is the sum of its two halves and multiplication commutes — no entry needs to be finite, so
  the precondition is never opened.

  Modules: Mix (the two entry formulas and the two laws), Payload (the body's arithmetic at an entry), Blocks (the block a grid
  point writes is a block of one whole-array function; the blocks tile the output), Layout (merging and splitting the position
  axis, cutting W), KernelRun (the kernel's program run and read back), RefSide (the reference read at an entry).  The frames of
  the two kernel programs are the generated ones; the reference's frame is its generated run with the result dropped; the
  idealization rewrote nothing, so there is nothing to preserve.
-/
import proofs.«134203_j51857435132042_1_alg».proof.Defs
import proofs.«134203_j51857435132042_1_alg».proof.Proof.Gen.Kernel
import proofs.«134203_j51857435132042_1_alg».proof.Proof.Gen.Kernel.Frame
import proofs.«134203_j51857435132042_1_alg».proof.Proof.Gen.KernelIdeal
import proofs.«134203_j51857435132042_1_alg».proof.Proof.Gen.KernelIdeal.Frame
import proofs.«134203_j51857435132042_1_alg».proof.Proof.Gen.ReferenceIdeal
import proofs.«134203_j51857435132042_1_alg».proof.Proof.Gen.ReferenceIdeal.Run
import proofs.«134203_j51857435132042_1_alg».proof.Proof.Gen.ReferenceIdeal.Read
import proofs.«134203_j51857435132042_1_alg».proof.Proof.Gen.Pre_finite_inputs
import proofs.«134203_j51857435132042_1_alg».proof.Proof.KernelRun
import proofs.«134203_j51857435132042_1_alg».proof.Proof.RefSide
import Idealize.ShloMosaic.Adequacy
import Idealize.ShloMosaic.Init

noncomputable section

namespace Cert.Proof

open Idealize.ShloMosaic Idealize.ShloMosaic.TcCoe Idealize.SL.Sem

/-- The kernel's program as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference has no launch: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with `out` of the (agreeing) arguments in their result. -/
theorem algebraic : Cert.algebraic_KernelIdeal_ReferenceIdeal := by
  intro m ρ m' ρ' _ hagree
  refine ⟨fun c => Cert.Dft.out (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v10_eq _ _ _).trans (Cert.ReferenceIdeal.Entry.reference_eq_out _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
